-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 53
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S100000x128, .f32⟩
  | .hbm, ⟨30, _⟩ => ⟨S640000x1, .i32⟩
  | .hbm, ⟨31, _⟩ => ⟨S100000x128, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S100000x128, .f32⟩
  | .hbm, ⟨47, _⟩ => ⟨S640000x1, .i32⟩
  | .hbm, ⟨48, _⟩ => ⟨S100000x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_v0 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call1_v0) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S100000x128, .f32⟩
  | .hbm, ⟨59, _⟩ => ⟨S640000x1, .i32⟩
  | .hbm, ⟨60, _⟩ => ⟨S100000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S100000, .f32⟩
  | .hbm, ⟨65, _⟩ => ⟨S640000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.ValueRun.lean ====
/-
  The idealized kernel's run with its result NAMED: every weakly fair execution of @main terminates, nothing faulting,
  with the result array at what the last boundary of the run holds there (the contents after the second launch's
  write-backs, `W6`), and the eight argument arrays as launched.

  @main is six segments — two stretches of host operations, the first launch, two more stretches, the second launch —
  and the thread state carried through them is "every unscoped buffer at the boundary's contents". The final state is
  read against the last boundary's contents at EVERY unscoped buffer, so the result buffer is read the same way as
  the arguments are; an argument is then walked back to its launch contents, the result is left at `W6` for the value
  modules to open.
-/
import proofs.«130118_j16381005267298_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main from any memory with zero counters: the result array ends at the last boundary's contents, the
    argument arrays as launched. -/
theorem run : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.ValueRun

end
-- ==== Proof.Spec.lean ====
/-
  One mean-aggregating graph-convolution layer as a function of its arrays, index by index, over the extended reals.

  Row `r` of the result is, at column `j`,
      act ( (Σ_k (agg[r,k] / max(cnt[r], 1)) · Wl[k,j]  +  Σ_k h[r,k] · Wr[k,j])  +  b[j] ),
  where `agg` holds the sums of the neighbours' features, `cnt` (a column) the number of neighbours, `h` the node's own
  features, `Wl` and `Wr` the two weight matrices already transposed, and `b` (a row) the bias. The layer is stated for
  any number of rows `n`: a block of rows of the result is the same function of the same blocks of rows of `agg`, `cnt`
  and `h`, which is what lets one definition serve both a block and the whole array.

  The two programs group the three summands differently — (P + Q) + b against (P + b) + Q — and addition of extended
  reals is commutative and associative with no side condition, so the regrouping needs no finiteness.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The float word of 1.0, kept as a word: both programs hold the same one, so it is never evaluated. -/
abbrev one : EReal := Ideal.ofBits .f32 0x3F800000#32

/-- The float word of 0.0, kept as a word on both sides. -/
abbrev zero : EReal := Ideal.ofBits .f32 0x00000000#32

/-- The rectifier max(·, 0.0). -/
def relu (v : EReal) : EReal := max v zero

/-- The pre-activation of one layer at row `p`, column `q`: the mean of the neighbours through `wl`, the node itself
    through `wr`, then the bias. -/
def pre {n : ℕ} (agg : (⟨2, ![n, 128]⟩ : Shape).Idx → EReal) (cnt : (⟨2, ![n, 1]⟩ : Shape).Idx → EReal)
    (h : (⟨2, ![n, 128]⟩ : Shape).Idx → EReal) (wl wr : (⟨2, ![128, 128]⟩ : Shape).Idx → EReal)
    (b : (⟨2, ![1, 128]⟩ : Shape).Idx → EReal) (p : Fin n) (q : Fin 128) : EReal :=
  ((∑ k : Fin 128, Ideal.div (agg (ix2 p k)) (max (cnt (ix2 p (0 : Fin 1))) one) * wl (ix2 k q))
      + ∑ k : Fin 128, h (ix2 p k) * wr (ix2 k q))
    + b (ix2 (0 : Fin 1) q)

/-- One layer: the activation `act` of the pre-activation, at every index. -/
def layer (act : EReal → EReal) {n : ℕ} (agg : (⟨2, ![n, 128]⟩ : Shape).Idx → EReal) (cnt : (⟨2, ![n, 1]⟩ : Shape).Idx → EReal)
    (h : (⟨2, ![n, 128]⟩ : Shape).Idx → EReal) (wl wr : (⟨2, ![128, 128]⟩ : Shape).Idx → EReal)
    (b : (⟨2, ![1, 128]⟩ : Shape).Idx → EReal) : (⟨2, ![n, 128]⟩ : Shape).Idx → EReal :=
  fun i => act (pre agg cnt h wl wr b (i 0) (i 1))

theorem layer_ix2 (act : EReal → EReal) {n : ℕ} (agg : (⟨2, ![n, 128]⟩ : Shape).Idx → EReal) (cnt : (⟨2, ![n, 1]⟩ : Shape).Idx → EReal)
    (h : (⟨2, ![n, 128]⟩ : Shape).Idx → EReal) (wl wr : (⟨2, ![128, 128]⟩ : Shape).Idx → EReal)
    (b : (⟨2, ![1, 128]⟩ : Shape).Idx → EReal) (p : Fin n) (q : Fin 128) :
    layer act agg cnt h wl wr b (ix2 p q) = act (pre agg cnt h wl wr b p q) := rfl

/-- A LAYER OF ROW BLOCKS is the layer of the arrays at the shifted row: when the row-blocked operands `a0`, `a1`, `a2`
    are the arrays `A0`, `A1`, `A2` read at row `off p`, and the weights and the bias agree entry by entry, row `p` of the
    blocks' layer is row `off p` of the arrays' layer. (A layer's row depends on no other row.) -/
theorem layer_rows (act : EReal → EReal) {n n' : ℕ} (off : Fin n → Fin n')
    (a0 : (⟨2, ![n, 128]⟩ : Shape).Idx → EReal) (a1 : (⟨2, ![n, 1]⟩ : Shape).Idx → EReal)
    (a2 : (⟨2, ![n, 128]⟩ : Shape).Idx → EReal) (w3 w4 : (⟨2, ![128, 128]⟩ : Shape).Idx → EReal)
    (b5 : (⟨2, ![1, 128]⟩ : Shape).Idx → EReal)
    (A0 : (⟨2, ![n', 128]⟩ : Shape).Idx → EReal) (A1 : (⟨2, ![n', 1]⟩ : Shape).Idx → EReal)
    (A2 : (⟨2, ![n', 128]⟩ : Shape).Idx → EReal) (W3 W4 : (⟨2, ![128, 128]⟩ : Shape).Idx → EReal)
    (B5 : (⟨2, ![1, 128]⟩ : Shape).Idx → EReal)
    (h0 : ∀ p k, a0 (ix2 p k) = A0 (ix2 (off p) k)) (h1 : ∀ p, a1 (ix2 p (0 : Fin 1)) = A1 (ix2 (off p) (0 : Fin 1)))
    (h2 : ∀ p k, a2 (ix2 p k) = A2 (ix2 (off p) k)) (h3 : ∀ k q, w3 (ix2 k q) = W3 (ix2 k q))
    (h4 : ∀ k q, w4 (ix2 k q) = W4 (ix2 k q)) (h5 : ∀ q, b5 (ix2 (0 : Fin 1) q) = B5 (ix2 (0 : Fin 1) q))
    (p : Fin n) (q : Fin 128) :
    layer act a0 a1 a2 w3 w4 b5 (ix2 p q) = layer act A0 A1 A2 W3 W4 B5 (ix2 (off p) q) := by
  simp only [layer_ix2, pre, h0, h1, h2, h3, h4, h5]

/-- The one law between the two programs: the bias may be added before or after the second product. -/
theorem regroup (P Q b : EReal) : (P + b) + Q = (P + Q) + b := add_right_comm P b Q

end Cert.Sage

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.Payload.lean ====
/-
  What one grid point of either region computes: the block it stores is one layer (Spec) of the blocks it loaded.

  Both bodies load a block of neighbour sums `x0`, the matching block of the neighbour-count column `x1`, the matching
  block of node features `x2`, the two transposed weight matrices `x3`, `x4` whole, and the bias row `x5`; they divide
  each row of `x0` by max(count, 1) broadcast along the row, multiply by `x3`, add `x2` times `x4`, add the bias row
  broadcast down the rows; the first region then takes max(·, 0). Read at row `p`, column `q`, each matrix product
  into a zero accumulator is the plain sum over the contracted coordinate of the products of entries (p, k) and (k, q).
-/
import proofs.«130118_j16381005267298_2_alg».proof.Proof.Gen.KernelIdeal.Skeleton
import proofs.«130118_j16381005267298_2_alg».proof.Proof.Spec
import proofs.«130118_j16381005267298_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The left operand's row coordinate is the output's. -/
theorem lhs_row (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate is the output's. -/
theorem rhs_col (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block's matrix product into the zero accumulator, at row `p` and column `q`: the sum over `k` of the left
    operand at (p, k) times the right operand at (k, q). -/
theorem matmul_zero_ix2 (lhs : FVec Ideal S5000x128 .f32) (rhs : FVec Ideal S128x128 .f32) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The count column, floored at one and broadcast along the row, at (p, q): max(count of row p, 1). -/
theorem floored_count_ix2 (x1 : FVec Ideal S5000x1 .f32) (p : Fin 5000) (q : Fin 128) :
    broadcastTo S5000x128 (maximumf x1 (broadcast S5000x1 (Scalar.ofBits (F := Ideal) .f32 0x3F800000#32)))
        broadcasts_S5000x1_S5000x128 (ix2 p q)
      = max (x1 (ix2 p (0 : Fin 1))) Sage.one := by
  rw [Cert.LibLayout.broadcastTo_a1_ab_apply]
  rfl

/-- The bias row broadcast down the rows, at (p, q): the bias at column q. -/
theorem bias_ix2 (x5 : FVec Ideal S1x128 .f32) (p : Fin 5000) (q : Fin 128) :
    broadcastTo S5000x128 x5 broadcasts_S1x128_S5000x128 (ix2 p q) = x5 (ix2 (0 : Fin 1) q) :=
  broadcastTo_1b_ab_apply x5 broadcasts_S1x128_S5000x128 p q

/-- REGION 0's stored block is the rectified layer of its loaded blocks. -/
theorem pay0_eq (x0 : Vec Ideal S5000x128 .f32) (x1 : Vec Ideal S5000x1 .f32) (x2 : Vec Ideal S5000x128 .f32)
    (x3 x4 : Vec Ideal S128x128 .f32) (x5 : Vec Ideal S1x128 .f32) :
    k0_pay1 (F := Ideal) x0 x1 x2 x3 x4 x5 = Sage.layer Sage.relu x0 x1 x2 x3 x4 x5 := by
  funext j
  obtain ⟨p, q, rfl⟩ : ∃ (p : Fin 5000) (q : Fin 128), j = ix2 p q := ⟨j 0, j 1, eq_ix2 j⟩
  rw [Sage.layer_ix2]
  unfold k0_pay1
  simp only [shapeCast_self, maximumf_apply, addf_apply, matmul_zero_ix2, divf_apply, floored_count_ix2, bias_ix2,
    broadcast_apply]
  rfl

/-- REGION 1's stored block is the layer of its loaded blocks, with no activation. -/
theorem pay1_eq (x0 : Vec Ideal S5000x128 .f32) (x1 : Vec Ideal S5000x1 .f32) (x2 : Vec Ideal S5000x128 .f32)
    (x3 x4 : Vec Ideal S128x128 .f32) (x5 : Vec Ideal S1x128 .f32) :
    k1_pay1 (F := Ideal) x0 x1 x2 x3 x4 x5 = Sage.layer id x0 x1 x2 x3 x4 x5 := by
  funext j
  obtain ⟨p, q, rfl⟩ : ∃ (p : Fin 5000) (q : Fin 128), j = ix2 p q := ⟨j 0, j 1, eq_ix2 j⟩
  rw [Sage.layer_ix2]
  unfold k1_pay1
  simp only [shapeCast_self, addf_apply, matmul_zero_ix2, divf_apply, floored_count_ix2, bias_ix2]
  rfl

end Cert.KernelIdeal.Payload

end
-- ==== Proof.Region0.lean ====
/-
  REGION 0 as a whole-array function: after the first launch, the node-feature array it writes is the rectified layer
  (Spec) of the arrays it was entered with.

  The grid has 20 points; point `t` owns rows 5000·t … 5000·t + 4999. At point `t` the three row-blocked operands (the
  neighbour sums, the count column, the node features) are read at block `t`, the two weight matrices and the bias row
  whole, and the output block `t` is written back. Since a layer's row `r` depends only on row `r` of the row-blocked
  operands, block `t` of the layer of the arrays is the layer of the blocks; the 20 blocks tile the 100000 rows, so the
  array ends as the layer of the entry arrays. Stated for any entry contents `V`.
-/
import proofs.«130118_j16381005267298_2_alg».proof.Proof.Gen.KernelIdeal.Frame
import proofs.«130118_j16381005267298_2_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows (0, 1, 2 and the output 6) sit at block row `t`,
    block column 0; the weight and bias windows at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The whole-array function: the layer of the six entry arrays. -/
abbrev result (c : Dev nD) : S100000x128.Idx → EReal :=
  Sage.layer (n := 100000) Sage.relu (V c main_v18) (V c main_v8) (V c main_arg0) (V c main_v19) (V c main_v20) (V c main_call0_v0)

/-- WHAT POINT `t` WRITES BACK is block `t` of the layer of the entry arrays. -/
theorem flushed (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero origin]
  simp only [View.ld_unit_zero (S := S5000x128) origin, View.ld_unit_zero (S := S5000x1) origin,
    View.ld_unit_zero (S := S128x128) origin, View.ld_unit_zero (S := S1x128) origin]
  rw [Payload.pay0_eq]
  obtain ⟨e00, e01, e10, e11, e20, e21, e30, e31, e40, e41, e50, e51, e60, e61⟩ := index_facts t
  have ht : t.val < 20 := lt_of_lt_of_eq t.isLt N_0
  refine funext fun (j : S5000x128.Idx) => ?_
  obtain ⟨p, q, rfl⟩ : ∃ (p : Fin 5000) (q : Fin 128), j = ix2 p q := ⟨j 0, j 1, eq_ix2 j⟩
  -- the row of the arrays that row `p` of block `t` is
  let off : Fin 5000 → Fin 100000 := fun p => ⟨t.val * 5000 + p.val, by have := p.isLt; omega⟩
  show Sage.layer (n := 5000) Sage.relu (iblk0 V c 0 t) (iblk0 V c 1 t) (iblk0 V c 2 t) (iblk0 V c 3 t) (iblk0 V c 4 t)
      (iblk0 V c 5 t) (ix2 p q) = result V c (((cfg0.win 6).blk t).view.emb (ix2 p q))
  have hemb : ((cfg0.win 6).blk t).view.emb (ix2 p q) = (ix2 (off p) q : S100000x128.Idx) := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  rw [hemb]
  refine Sage.layer_rows Sage.relu off _ _ _ _ _ _ _ _ _ _ _ _ ?_ ?_ ?_ ?_ ?_ ?_ p q
  · exact fun p k => by
      show V c main_v18 (((cfg0.win 0).blk t).view.emb (ix2 p k)) = V c main_v18 (ix2 (off p) k)
      refine congrArg _ (funext fun a => Fin.ext ?_)
      match a with
      | ⟨0, _⟩ => show win0_0.index t (0 : Fin 2) * 5000 + 1 * p.val = t.val * 5000 + p.val; omega
      | ⟨1, _⟩ => show win0_0.index t (1 : Fin 2) * 128 + 1 * k.val = k.val; omega
  · exact fun p => by
      show V c main_v8 (((cfg0.win 1).blk t).view.emb (ix2 p (0 : Fin 1))) = V c main_v8 (ix2 (off p) (0 : Fin 1))
      refine congrArg _ (funext fun a => Fin.ext ?_)
      match a with
      | ⟨0, _⟩ => show win0_1.index t (0 : Fin 2) * 5000 + 1 * p.val = t.val * 5000 + p.val; omega
      | ⟨1, _⟩ => show win0_1.index t (1 : Fin 2) * 1 + 1 * 0 = 0; omega
  · exact fun p k => by
      show V c main_arg0 (((cfg0.win 2).blk t).view.emb (ix2 p k)) = V c main_arg0 (ix2 (off p) k)
      refine congrArg _ (funext fun a => Fin.ext ?_)
      match a with
      | ⟨0, _⟩ => show win0_2.index t (0 : Fin 2) * 5000 + 1 * p.val = t.val * 5000 + p.val; omega
      | ⟨1, _⟩ => show win0_2.index t (1 : Fin 2) * 128 + 1 * k.val = k.val; omega
  · exact fun k q => by
      show V c main_v19 (((cfg0.win 3).blk t).view.emb (ix2 k q)) = V c main_v19 (ix2 k q)
      refine congrArg _ (funext fun a => Fin.ext ?_)
      match a with
      | ⟨0, _⟩ => show win0_3.index t (0 : Fin 2) * 128 + 1 * k.val = k.val; omega
      | ⟨1, _⟩ => show win0_3.index t (1 : Fin 2) * 128 + 1 * q.val = q.val; omega
  · exact fun k q => by
      show V c main_v20 (((cfg0.win 4).blk t).view.emb (ix2 k q)) = V c main_v20 (ix2 k q)
      refine congrArg _ (funext fun a => Fin.ext ?_)
      match a with
      | ⟨0, _⟩ => show win0_4.index t (0 : Fin 2) * 128 + 1 * k.val = k.val; omega
      | ⟨1, _⟩ => show win0_4.index t (1 : Fin 2) * 128 + 1 * q.val = q.val; omega
  · exact fun q => by
      show V c main_call0_v0 (((cfg0.win 5).blk t).view.emb (ix2 (0 : Fin 1) q)) = V c main_call0_v0 (ix2 (0 : Fin 1) q)
      refine congrArg _ (funext fun a => Fin.ext ?_)
      match a with
      | ⟨0, _⟩ => show win0_5.index t (0 : Fin 2) * 1 + 1 * 0 = 0; omega
      | ⟨1, _⟩ => show win0_5.index t (1 : Fin 2) * 128 + 1 * q.val = q.val; omega

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v21).slice (win0_6.rect t)).set ↔ _
  rw [View.set_slice_whole, Rect.mem_set_unit]
  exact Iff.rfl

/-- Every index of the array is in the block of the point that owns its row: row `r` belongs to point `r / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, hT⟩ : ∃ t : Fin cfg0.N, t.val = (i 0).val / 5000 :=
    ⟨⟨(i 0).val / 5000, lt_of_lt_of_eq (by omega : (i 0).val / 5000 < 20) N_0.symm⟩, rfl⟩
  obtain ⟨e00, e01, e10, e11, e20, e21, e30, e31, e40, e41, e50, e51, e60, e61⟩ := index_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE ARRAY after the region: the layer of the entry arrays. -/
theorem final (c : Dev nD) : (dat0 V c).arrAt 6 cfg0.N = result V c :=
  (dat0 V c).arrAt_eq_of_cover 6 (result V c) (fun t _ => flushed V c t) cover

end Cert.KernelIdeal.Region0

end
-- ==== Proof.Region1.lean ====
/-
  REGION 1 as a whole-array function: after the second launch, the result array is the layer (Spec), with no
  activation, of the arrays the region was entered with.

  The same tiling as the first launch: 20 points, point `t` owning rows 5000·t … 5000·t + 4999, the row-blocked
  operands read at block `t`, the weights and the bias row whole, output block `t` written back; a layer's row depends
  on no other row, and the 20 blocks tile the 100000 rows. Stated for any entry contents `V`.
-/
import proofs.«130118_j16381005267298_2_alg».proof.Proof.Gen.KernelIdeal.Frame
import proofs.«130118_j16381005267298_2_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows (0, 1, 2 and the output 6) sit at block row `t`,
    block column 0; the weight and bias windows at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The whole-array function: the layer of the six entry arrays. -/
abbrev result (c : Dev nD) : S100000x128.Idx → EReal :=
  Sage.layer (n := 100000) id (V c main_v31) (V c main_v8) (V c main_v21) (V c main_v32) (V c main_v33) (V c main_call1_v0)

/-- WHAT POINT `t` WRITES BACK is block `t` of the layer of the entry arrays. -/
theorem flushed (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero origin]
  simp only [View.ld_unit_zero (S := S5000x128) origin, View.ld_unit_zero (S := S5000x1) origin,
    View.ld_unit_zero (S := S128x128) origin, View.ld_unit_zero (S := S1x128) origin]
  rw [Payload.pay1_eq]
  obtain ⟨e00, e01, e10, e11, e20, e21, e30, e31, e40, e41, e50, e51, e60, e61⟩ := index_facts t
  have ht : t.val < 20 := lt_of_lt_of_eq t.isLt N_1
  refine funext fun (j : S5000x128.Idx) => ?_
  obtain ⟨p, q, rfl⟩ : ∃ (p : Fin 5000) (q : Fin 128), j = ix2 p q := ⟨j 0, j 1, eq_ix2 j⟩
  -- the row of the arrays that row `p` of block `t` is
  let off : Fin 5000 → Fin 100000 := fun p => ⟨t.val * 5000 + p.val, by have := p.isLt; omega⟩
  show Sage.layer (n := 5000) id (iblk1 V c 0 t) (iblk1 V c 1 t) (iblk1 V c 2 t) (iblk1 V c 3 t) (iblk1 V c 4 t)
      (iblk1 V c 5 t) (ix2 p q) = result V c (((cfg1.win 6).blk t).view.emb (ix2 p q))
  have hemb : ((cfg1.win 6).blk t).view.emb (ix2 p q) = (ix2 (off p) q : S100000x128.Idx) := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  rw [hemb]
  refine Sage.layer_rows id off _ _ _ _ _ _ _ _ _ _ _ _ ?_ ?_ ?_ ?_ ?_ ?_ p q
  · exact fun p k => by
      show V c main_v31 (((cfg1.win 0).blk t).view.emb (ix2 p k)) = V c main_v31 (ix2 (off p) k)
      refine congrArg _ (funext fun a => Fin.ext ?_)
      match a with
      | ⟨0, _⟩ => show win1_0.index t (0 : Fin 2) * 5000 + 1 * p.val = t.val * 5000 + p.val; omega
      | ⟨1, _⟩ => show win1_0.index t (1 : Fin 2) * 128 + 1 * k.val = k.val; omega
  · exact fun p => by
      show V c main_v8 (((cfg1.win 1).blk t).view.emb (ix2 p (0 : Fin 1))) = V c main_v8 (ix2 (off p) (0 : Fin 1))
      refine congrArg _ (funext fun a => Fin.ext ?_)
      match a with
      | ⟨0, _⟩ => show win1_1.index t (0 : Fin 2) * 5000 + 1 * p.val = t.val * 5000 + p.val; omega
      | ⟨1, _⟩ => show win1_1.index t (1 : Fin 2) * 1 + 1 * 0 = 0; omega
  · exact fun p k => by
      show V c main_v21 (((cfg1.win 2).blk t).view.emb (ix2 p k)) = V c main_v21 (ix2 (off p) k)
      refine congrArg _ (funext fun a => Fin.ext ?_)
      match a with
      | ⟨0, _⟩ => show win1_2.index t (0 : Fin 2) * 5000 + 1 * p.val = t.val * 5000 + p.val; omega
      | ⟨1, _⟩ => show win1_2.index t (1 : Fin 2) * 128 + 1 * k.val = k.val; omega
  · exact fun k q => by
      show V c main_v32 (((cfg1.win 3).blk t).view.emb (ix2 k q)) = V c main_v32 (ix2 k q)
      refine congrArg _ (funext fun a => Fin.ext ?_)
      match a with
      | ⟨0, _⟩ => show win1_3.index t (0 : Fin 2) * 128 + 1 * k.val = k.val; omega
      | ⟨1, _⟩ => show win1_3.index t (1 : Fin 2) * 128 + 1 * q.val = q.val; omega
  · exact fun k q => by
      show V c main_v33 (((cfg1.win 4).blk t).view.emb (ix2 k q)) = V c main_v33 (ix2 k q)
      refine congrArg _ (funext fun a => Fin.ext ?_)
      match a with
      | ⟨0, _⟩ => show win1_4.index t (0 : Fin 2) * 128 + 1 * k.val = k.val; omega
      | ⟨1, _⟩ => show win1_4.index t (1 : Fin 2) * 128 + 1 * q.val = q.val; omega
  · exact fun q => by
      show V c main_call1_v0 (((cfg1.win 5).blk t).view.emb (ix2 (0 : Fin 1) q)) = V c main_call1_v0 (ix2 (0 : Fin 1) q)
      refine congrArg _ (funext fun a => Fin.ext ?_)
      match a with
      | ⟨0, _⟩ => show win1_5.index t (0 : Fin 2) * 1 + 1 * 0 = 0; omega
      | ⟨1, _⟩ => show win1_5.index t (1 : Fin 2) * 128 + 1 * q.val = q.val; omega

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v34).slice (win1_6.rect t)).set ↔ _
  rw [View.set_slice_whole, Rect.mem_set_unit]
  exact Iff.rfl

/-- Every index of the array is in the block of the point that owns its row: row `r` belongs to point `r / 5000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, hT⟩ : ∃ t : Fin cfg1.N, t.val = (i 0).val / 5000 :=
    ⟨⟨(i 0).val / 5000, lt_of_lt_of_eq (by omega : (i 0).val / 5000 < 20) N_1.symm⟩, rfl⟩
  obtain ⟨e00, e01, e10, e11, e20, e21, e30, e31, e40, e41, e50, e51, e60, e61⟩ := index_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- THE ARRAY after the region: the layer of the entry arrays. -/
theorem final (c : Dev nD) : (dat1 V c).arrAt 6 cfg1.N = result V c :=
  (dat1 V c).arrAt_eq_of_cover 6 (result V c) (fun t _ => flushed V c t) cover

end Cert.KernelIdeal.Region1

end
-- ==== Proof.RefLayers.lean ====
/-
  The reference's two layers are the layer function (Spec).

  Per layer the reference divides the neighbour sums by max(count, 1) broadcast to a column and then along the rows,
  multiplies by the transposed weight matrix, adds the bias broadcast to a row and then down the rows, and adds the
  node features times the second transposed weight matrix; layer 1 then takes max(·, 0). Read at row `p`, column `q`,
  each product is the sum over `k` of entries (p, k) and (k, q), the floored count is that of row `p`, the bias is that of
  column `q`. The reference adds the bias BEFORE the second product, the layer function after it: the two groupings of
  three summands agree on the extended reals. The neighbour sums, the counts and the transposes are left as the arrays
  they are: nothing here looks inside them.
-/
import proofs.«130118_j16381005267298_2_alg».proof.Proof.Gen.ReferenceIdeal.Read
import proofs.«130118_j16381005267298_2_alg».proof.Proof.Spec
import proofs.«130118_j16381005267298_2_alg».proof.Proof.LibLayout
import Idealize.ShloMosaic.Lib.ValueLayout

noncomputable section

namespace Cert.ReferenceIdeal.Layers

open Idealize.ShloMosaic Idealize.ShloMosaic.ValueIdx Cert.ReferenceIdeal Cert.ReferenceIdeal.Read

/-- LAYER 1 of the reference, rectifier included: the rectified layer of the first neighbour sums, the counts as a
    column, the input features, the two transposed first-layer weights and the first bias as a row. -/
theorem layer1 (x0 : (⟨S100000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (hc : S100000.ShapeCasts S100000x1) (hb : S128.ShapeCasts S1x128) :
    val_main_v31 (F := Ideal) x0 x1 x2 x3 x4
      = Sage.layer (n := 100000) Sage.relu (val_main_v13 (F := Ideal) x0 x1) (shapeCast S100000x1 (val_main_v17 (F := Ideal) x1) hc) x0
          (val_main_v23 (F := Ideal) x2) (val_main_v28 (F := Ideal) x3) (shapeCast S1x128 x4 hb) := by
  funext i
  obtain ⟨p, q, rfl⟩ : ∃ (p : Fin 100000) (q : Fin 128), i = ix2 p q := ⟨i 0, i 1, eq_ix2 i⟩
  have eL : ∀ k : Fin 128, lidx_main_v24 (ix2 p q) k = ix2 p k := fun k => funext fun a => Fin.ext (by
    match a with | ⟨0, _⟩ => rfl | ⟨1, _⟩ => rfl)
  have eR : ∀ k : Fin 128, ridx_main_v24 (ix2 p q) k = ix2 k q := fun k => funext fun a => Fin.ext (by
    match a with | ⟨0, _⟩ => rfl | ⟨1, _⟩ => rfl)
  have eL' : ∀ k : Fin 128, lidx_main_v29 (ix2 p q) k = ix2 p k := fun k => funext fun a => Fin.ext (by
    match a with | ⟨0, _⟩ => rfl | ⟨1, _⟩ => rfl)
  have eR' : ∀ k : Fin 128, ridx_main_v29 (ix2 p q) k = ix2 k q := fun k => funext fun a => Fin.ext (by
    match a with | ⟨0, _⟩ => rfl | ⟨1, _⟩ => rfl)
  have eC : ∀ k : Fin 128, idx_main_v20 (idx_main_v21 (ix2 p k)) = ix1 p := fun k => funext fun a => Fin.ext (by
    match a with | ⟨0, _⟩ => rfl)
  have eB : idx_main_v25 (idx_main_v26 (ix2 p q)) = ix1 q := funext fun a => Fin.ext (by
    match a with | ⟨0, _⟩ => rfl)
  rw [Sage.layer_ix2, val_main_v31_apply, val_main_v30_apply, val_main_v27_apply, val_main_v24_apply, val_main_v29_apply,
    val_main_v26_apply, val_main_v25_apply, val_main_call0_v0_apply, val_main_call0_cst_apply]
  simp only [val_main_v22_apply, val_main_v21_apply, val_main_v20_apply, val_main_v19_apply, val_main_v18_apply,
    val_main_cst_3_apply, eL, eR, eL', eR', eC, eB]
  unfold Sage.relu Sage.pre
  rw [Cert.LibLayout.shapeCast_a_a1_apply, shapeCast_a_1a_apply]
  exact congrArg (fun v => max v Sage.zero) (Sage.regroup _ _ _)

/-- LAYER 2 of the reference, no activation: the layer of the second neighbour sums, the counts as a column, layer 1's
    result, the two transposed second-layer weights and the second bias as a row. -/
theorem layer2 (x0 : (⟨S100000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (hc : S100000.ShapeCasts S100000x1) (hb : S128.ShapeCasts S1x128) :
    val_main_v58 (F := Ideal) x0 x1 x2 x3 x4 x5 x6 x7
      = Sage.layer (n := 100000) id (val_main_v41 (F := Ideal) x0 x1 x2 x3 x4) (shapeCast S100000x1 (val_main_v45 (F := Ideal) x1) hc)
          (val_main_v31 (F := Ideal) x0 x1 x2 x3 x4) (val_main_v51 (F := Ideal) x5) (val_main_v56 (F := Ideal) x6) (shapeCast S1x128 x7 hb) := by
  funext i
  obtain ⟨p, q, rfl⟩ : ∃ (p : Fin 100000) (q : Fin 128), i = ix2 p q := ⟨i 0, i 1, eq_ix2 i⟩
  have eL : ∀ k : Fin 128, lidx_main_v52 (ix2 p q) k = ix2 p k := fun k => funext fun a => Fin.ext (by
    match a with | ⟨0, _⟩ => rfl | ⟨1, _⟩ => rfl)
  have eR : ∀ k : Fin 128, ridx_main_v52 (ix2 p q) k = ix2 k q := fun k => funext fun a => Fin.ext (by
    match a with | ⟨0, _⟩ => rfl | ⟨1, _⟩ => rfl)
  have eL' : ∀ k : Fin 128, lidx_main_v57 (ix2 p q) k = ix2 p k := fun k => funext fun a => Fin.ext (by
    match a with | ⟨0, _⟩ => rfl | ⟨1, _⟩ => rfl)
  have eR' : ∀ k : Fin 128, ridx_main_v57 (ix2 p q) k = ix2 k q := fun k => funext fun a => Fin.ext (by
    match a with | ⟨0, _⟩ => rfl | ⟨1, _⟩ => rfl)
  have eC : ∀ k : Fin 128, idx_main_v48 (idx_main_v49 (ix2 p k)) = ix1 p := fun k => funext fun a => Fin.ext (by
    match a with | ⟨0, _⟩ => rfl)
  have eB : idx_main_v53 (idx_main_v54 (ix2 p q)) = ix1 q := funext fun a => Fin.ext (by
    match a with | ⟨0, _⟩ => rfl)
  rw [Sage.layer_ix2, val_main_v58_apply, val_main_v55_apply, val_main_v52_apply, val_main_v57_apply, val_main_v54_apply,
    val_main_v53_apply]
  simp only [val_main_v50_apply, val_main_v49_apply, val_main_v48_apply, val_main_v47_apply, val_main_v46_apply,
    val_main_cst_9_apply, eL, eR, eL', eR', eC, eB]
  unfold Sage.pre
  rw [Cert.LibLayout.shapeCast_a_a1_apply, shapeCast_a_1a_apply]
  exact Sage.regroup _ _ _

end Cert.ReferenceIdeal.Layers

end
-- ==== Proof.KernelValue.lean ====
/-
  What the idealized kernel's result array holds, as a function of the launch arguments.

  Walking the run backwards from the last boundary: the result array is what the second launch leaves, the layer
  (Region1) of that launch's entry arrays — the second neighbour sums, the count column, layer 1's output, the two
  transposed second-layer weights, the second bias as a row. Of these the host operations between the launches
  computed the neighbour sums (a gather of layer 1's output at the source nodes, scatter-added at the destination
  nodes), the transposes and the bias row; layer 1's output is what the first launch left, the rectified layer
  (Region0) of ITS entry arrays, which the host operations before it computed from the arguments the same way; the
  count column is computed once, before the first launch, and is untouched since.

  Every host operation the kernel's @main applies outside its launches is one the reference applies too, to the same
  operands. So each entry array is stated as the reference's own term for that value (the generated stage functions
  `val_main_vN` of the reference's read-back), and the equalities are by unfolding both sides to the same operations;
  the gathers and scatters are never opened. With the two reference-layer lemmas the result array is then the
  reference's result term itself.
-/
import proofs.«130118_j16381005267298_2_alg».proof.Proof.Gen.KernelIdeal.Frame
import proofs.«130118_j16381005267298_2_alg».proof.Proof.Gen.ReferenceIdeal.Read
import proofs.«130118_j16381005267298_2_alg».proof.Proof.Region0
import proofs.«130118_j16381005267298_2_alg».proof.Proof.Region1
import proofs.«130118_j16381005267298_2_alg».proof.Proof.RefLayers
import Idealize.ShloMosaic.Lib.StableHlo.Run

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-- The launch contents of the eight arguments on core `c`. -/
abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
abbrev arg6 := m ((c : Thread nD τ).loc main_arg6)
abbrev arg7 := m ((c : Thread nD τ).loc main_arg7)

/-! ## What the first launch is entered with -/

/-- The first neighbour sums: the input features gathered at the source nodes, scatter-added at the destinations. -/
theorem entry0_sums : V2 m ρ c main_v18 = val_main_v13 (F := Ideal) (arg0 m c) (arg1 m c) := by
  show StableHlo.after hostOps0_1 (StableHlo.after hostOps0 (W0 m ρ c)) (Proc.devRef .tc main_v18) = _
  dsimp only [hostOps0, hostOps0_1]
  after_results_simp
  rfl

/-- The neighbour counts (ones scatter-added at the destinations), as a column. -/
theorem entry0_counts : V2 m ρ c main_v8
    = shapeCast S100000x1 (val_main_v17 (F := Ideal) (arg1 m c)) shapeCasts_S100000_S100000x1 := by
  show StableHlo.after hostOps0_1 (StableHlo.after hostOps0 (W0 m ρ c)) (Proc.devRef .tc main_v8) = _
  dsimp only [hostOps0, hostOps0_1]
  after_results_simp
  rfl

/-- The input features themselves. -/
theorem entry0_feats : V2 m ρ c main_arg0 = arg0 m c := by
  show StableHlo.after hostOps0_1 (StableHlo.after hostOps0 (W0 m ρ c)) (Proc.devRef .tc main_arg0) = _
  dsimp only [hostOps0, hostOps0_1]
  after_results_simp

/-- The first layer's two weight matrices, transposed. -/
theorem entry0_wl : V2 m ρ c main_v19 = val_main_v23 (F := Ideal) (arg2 m c) := by
  show StableHlo.after hostOps0_1 (StableHlo.after hostOps0 (W0 m ρ c)) (Proc.devRef .tc main_v19) = _
  dsimp only [hostOps0, hostOps0_1]
  after_results_simp
  rfl
theorem entry0_wr : V2 m ρ c main_v20 = val_main_v28 (F := Ideal) (arg3 m c) := by
  show StableHlo.after hostOps0_1 (StableHlo.after hostOps0 (W0 m ρ c)) (Proc.devRef .tc main_v20) = _
  dsimp only [hostOps0, hostOps0_1]
  after_results_simp
  rfl

/-- The first bias, as a row. -/
theorem entry0_bias : V2 m ρ c main_call0_v0 = shapeCast S1x128 (arg4 m c) shapeCasts_S128_S1x128 := by
  show StableHlo.after hostOps0_1 (StableHlo.after hostOps0 (W0 m ρ c)) (Proc.devRef .tc main_call0_v0) = _
  dsimp only [hostOps0, hostOps0_1]
  after_results_simp
  rfl

/-! ## What the first launch leaves -/

/-- LAYER 1's output, as the first launch leaves it: the reference's layer-1 value of the arguments. -/
theorem hidden : W3 m ρ c (Proc.devRef .tc main_v21)
    = val_main_v31 (F := Ideal) (arg0 m c) (arg1 m c) (arg2 m c) (arg3 m c) (arg4 m c) := by
  refine (W3_arr m ρ c 6).trans ?_
  rw [Region0.final (V2 m ρ) c]
  unfold Region0.result
  rw [entry0_sums, entry0_counts, entry0_feats, entry0_wl, entry0_wr, entry0_bias]
  exact (Cert.ReferenceIdeal.Layers.layer1 _ _ _ _ _ _ _).symm

/-- The first launch leaves the count column as it found it (an input window's array). -/
theorem counts_kept : W3 m ρ c (Proc.devRef .tc main_v8)
    = shapeCast S100000x1 (val_main_v17 (F := Ideal) (arg1 m c)) shapeCasts_S100000_S100000x1 :=
  ((W3_arr m ρ c 1).trans (((dat0 (V2 m ρ) c).arrAt_in 1 rfl _).trans (A_eq0 (V2 m ρ) c 1))).trans (entry0_counts m ρ c)

/-- A buffer that is no array of the first launch holds after it what the host operations before it left. -/
theorem src_kept : W3 m ρ c (Proc.devRef .tc main_v1) = val_main_v1 (F := Ideal) (arg1 m c) := by
  refine (W3_of_ne m ρ c main_v1 (by decide)).trans ?_
  show StableHlo.after hostOps0_1 (StableHlo.after hostOps0 (W0 m ρ c)) (Proc.devRef .tc main_v1) = _
  dsimp only [hostOps0, hostOps0_1]
  after_results_simp
  rfl
theorem dst_kept : W3 m ρ c (Proc.devRef .tc main_v3) = val_main_v3 (F := Ideal) (arg1 m c) := by
  refine (W3_of_ne m ρ c main_v3 (by decide)).trans ?_
  show StableHlo.after hostOps0_1 (StableHlo.after hostOps0 (W0 m ρ c)) (Proc.devRef .tc main_v3) = _
  dsimp only [hostOps0, hostOps0_1]
  after_results_simp
  rfl
theorem arg5_kept : W3 m ρ c (Proc.devRef .tc main_arg5) = arg5 m c := by
  refine (W3_of_ne m ρ c main_arg5 (by decide)).trans ?_
  show StableHlo.after hostOps0_1 (StableHlo.after hostOps0 (W0 m ρ c)) (Proc.devRef .tc main_arg5) = _
  dsimp only [hostOps0, hostOps0_1]
  after_results_simp
theorem arg6_kept : W3 m ρ c (Proc.devRef .tc main_arg6) = arg6 m c := by
  refine (W3_of_ne m ρ c main_arg6 (by decide)).trans ?_
  show StableHlo.after hostOps0_1 (StableHlo.after hostOps0 (W0 m ρ c)) (Proc.devRef .tc main_arg6) = _
  dsimp only [hostOps0, hostOps0_1]
  after_results_simp
theorem arg7_kept : W3 m ρ c (Proc.devRef .tc main_arg7) = arg7 m c := by
  refine (W3_of_ne m ρ c main_arg7 (by decide)).trans ?_
  show StableHlo.after hostOps0_1 (StableHlo.after hostOps0 (W0 m ρ c)) (Proc.devRef .tc main_arg7) = _
  dsimp only [hostOps0, hostOps0_1]
  after_results_simp

/-! ## What the second launch is entered with -/

/-- The second neighbour sums: layer 1's output gathered at the source nodes, scatter-added at the destinations. -/
theorem entry1_sums : V5 m ρ c main_v31
    = val_main_v41 (F := Ideal) (arg0 m c) (arg1 m c) (arg2 m c) (arg3 m c) (arg4 m c) := by
  show StableHlo.after hostOps1_1 (StableHlo.after hostOps1 (W3 m ρ c)) (Proc.devRef .tc main_v31) = _
  dsimp only [hostOps1, hostOps1_1]
  after_results_simp
  rw [hidden, src_kept, dst_kept]
  rfl

/-- The count column again: no operation between the launches writes it. -/
theorem entry1_counts : V5 m ρ c main_v8
    = shapeCast S100000x1 (val_main_v45 (F := Ideal) (arg1 m c)) shapeCasts_S100000_S100000x1 := by
  show StableHlo.after hostOps1_1 (StableHlo.after hostOps1 (W3 m ρ c)) (Proc.devRef .tc main_v8) = _
  dsimp only [hostOps1, hostOps1_1]
  after_results_simp
  rw [counts_kept]
  rfl

/-- Layer 1's output, which the second launch reads as the node features. -/
theorem entry1_feats : V5 m ρ c main_v21
    = val_main_v31 (F := Ideal) (arg0 m c) (arg1 m c) (arg2 m c) (arg3 m c) (arg4 m c) := by
  show StableHlo.after hostOps1_1 (StableHlo.after hostOps1 (W3 m ρ c)) (Proc.devRef .tc main_v21) = _
  dsimp only [hostOps1, hostOps1_1]
  after_results_simp
  exact hidden m ρ c

/-- The second layer's two weight matrices, transposed. -/
theorem entry1_wl : V5 m ρ c main_v32 = val_main_v51 (F := Ideal) (arg5 m c) := by
  show StableHlo.after hostOps1_1 (StableHlo.after hostOps1 (W3 m ρ c)) (Proc.devRef .tc main_v32) = _
  dsimp only [hostOps1, hostOps1_1]
  after_results_simp
  rw [arg5_kept]
  rfl
theorem entry1_wr : V5 m ρ c main_v33 = val_main_v56 (F := Ideal) (arg6 m c) := by
  show StableHlo.after hostOps1_1 (StableHlo.after hostOps1 (W3 m ρ c)) (Proc.devRef .tc main_v33) = _
  dsimp only [hostOps1, hostOps1_1]
  after_results_simp
  rw [arg6_kept]
  rfl

/-- The second bias, as a row. -/
theorem entry1_bias : V5 m ρ c main_call1_v0 = shapeCast S1x128 (arg7 m c) shapeCasts_S128_S1x128 := by
  show StableHlo.after hostOps1_1 (StableHlo.after hostOps1 (W3 m ρ c)) (Proc.devRef .tc main_call1_v0) = _
  dsimp only [hostOps1, hostOps1_1]
  after_results_simp
  rw [arg7_kept]
  rfl

/-! ## The result -/

/-- THE RESULT ARRAY at the end of the run is the reference's result term of the launch arguments. -/
theorem result : W6 m ρ c (Proc.devRef .tc main_v34)
    = val_main_v58 (F := Ideal) (arg0 m c) (arg1 m c) (arg2 m c) (arg3 m c) (arg4 m c) (arg5 m c) (arg6 m c) (arg7 m c) := by
  refine (W6_arr m ρ c 6).trans ?_
  rw [Region1.final (V5 m ρ) c]
  unfold Region1.result
  rw [entry1_sums, entry1_counts, entry1_feats, entry1_wl, entry1_wr, entry1_bias]
  exact (Cert.ReferenceIdeal.Layers.layer2 _ _ _ _ _ _ _ _ _ _).symm

end Cert.KernelIdeal.Value

end
-- ==== Proof.lean ====
/-
  The certificate of a two-layer mean-aggregating graph convolution: the kernel (two launches of one fused combine
  kernel among host gathers and scatter-adds) against its plain reference, over the extended reals.

  Both programs compute, per layer, for every node r and output column j,
      (Σ_k (agg[r,k] / max(cnt[r], 1)) · W_l[j,k])  +  (Σ_k h[r,k] · W_r[j,k])  +  b[j],
  where agg is the sum of the features of r's in-neighbours (a gather at the edges' sources, scatter-added at their
  destinations), cnt the number of in-neighbours and h the node's own features; layer 1 is followed by max(·, 0) and
  its output is layer 2's h. The kernel computes agg and cnt with the same host operations as the reference, and the
  rest of a layer — the division, the two products, the bias, the rectifier — inside a launch tiled over blocks of
  5000 nodes; the reference does all of it on whole arrays. The only arithmetic difference is the grouping of the
  three summands, (P + Q) + b in the kernel and (P + b) + Q in the reference; addition of extended reals is commutative
  and associative unconditionally, so the claim holds for all inputs and the finiteness precondition is never opened.

  The modules: Spec (the layer as a function; the regrouping), Payload (a launch's stored block is the layer of its
  loaded blocks), Region0 / Region1 (each launch's output array is the layer of its entry arrays), ValueRun (the
  kernel's run with its result named), KernelValue (the result array walked back through both launches and the host
  operations to the arguments), RefLayers (the reference's two layers are the layer function). The three frames are the
  generated ones; the idealization rewrote nothing, so there is nothing to preserve.
-/
import proofs.«130118_j16381005267298_2_alg».proof.Defs
import proofs.«130118_j16381005267298_2_alg».proof.Proof.Gen.Kernel
import proofs.«130118_j16381005267298_2_alg».proof.Proof.Gen.Kernel.Skeleton
import proofs.«130118_j16381005267298_2_alg».proof.Proof.Gen.Kernel.Launch
import proofs.«130118_j16381005267298_2_alg».proof.Proof.Gen.Kernel.Points
import proofs.«130118_j16381005267298_2_alg».proof.Proof.Gen.Kernel.Frame
import proofs.«130118_j16381005267298_2_alg».proof.Proof.Gen.KernelIdeal
import proofs.«130118_j16381005267298_2_alg».proof.Proof.Gen.KernelIdeal.Skeleton
import proofs.«130118_j16381005267298_2_alg».proof.Proof.Gen.KernelIdeal.Launch
import proofs.«130118_j16381005267298_2_alg».proof.Proof.Gen.KernelIdeal.Points
import proofs.«130118_j16381005267298_2_alg».proof.Proof.Gen.KernelIdeal.Frame
import proofs.«130118_j16381005267298_2_alg».proof.Proof.Gen.ReferenceIdeal
import proofs.«130118_j16381005267298_2_alg».proof.Proof.Gen.ReferenceIdeal.Run
import proofs.«130118_j16381005267298_2_alg».proof.Proof.Gen.ReferenceIdeal.Read
import proofs.«130118_j16381005267298_2_alg».proof.Proof.Gen.Pre_finite_inputs
import proofs.«130118_j16381005267298_2_alg».proof.Proof.ValueRun
import proofs.«130118_j16381005267298_2_alg».proof.Proof.KernelValue
import Idealize.ShloMosaic.Adequacy
import Idealize.ShloMosaic.Init

noncomputable section

namespace Cert.Proof

open Idealize.ShloMosaic Idealize.SL.Sem

/-- The idealized kernel's run, read: the result array ends at the reference's result term of the kernel's own launch
    arguments, and the arguments end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v34)
          = Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c).1.trans (Cert.KernelIdeal.Value.result m ρ c), (h c).2⟩)
    (Cert.KernelIdeal.ValueRun.run (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at ONE term: the kernel's by `kernel_run`, the reference's by its read-back run, its
    arguments rewritten to the kernel's by their agreement. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
